-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768 : Shape := ⟨2, ![32, 768]⟩
abbrev S256x768 : Shape := ⟨2, ![256, 768]⟩
abbrev S256x768x768 : Shape := ⟨3, ![256, 768, 768]⟩
abbrev S_ : Shape := ⟨0, ![]⟩

class Facts : Prop where
  bcast_S_S32x768 : S_.BroadcastsInDim S32x768 (![] : Fin 0 → Fin S32x768.rank)
  reducesTo_S32x768_S_d0_1 : S32x768.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256x768x768 : S_.BroadcastsInDim S256x768x768 (![] : Fin 0 → Fin S256x768x768.rank)
  reducesTo_S256x768x768_S_d0_1_2 : S256x768x768.ReducesTo [0, 1, 2] S_

variable [Facts]

def fn_part1 {F : FTy → Type} [FloatOps F] (main_v13 : IVec S_ 1) (main_v16 : IVec S256x768x768 1) : IVec S_ 1 :=
  let main_c_5 : IVec S_ 1 := constantI S_ 1 1#1
  let main_v17 : IVec S_ 1 := (fun x v => Host.reduce IntOp.andi x v reducesTo_S256x768x768_S_d0_1_2 h_S_) main_v16 main_c_5
  let main_v18 : IVec S_ 1 := andi main_v13 main_v17
  main_v18

def fn {F : FTy → Type} [FloatOps F] (main_arg0 : FVec F S32x768 .f32) (main_arg1 : FVec F S256x768 .f32) (main_arg2 : FVec F S256x768 .f32) (main_arg3 : FVec F S256x768x768 .f32) : IVec S_ 1 :=
  let main_v0 : FVec F S32x768 .f32 := Host.absf main_arg0
  let main_cst : FVec F S_ .f32 := constant S_ .f32 0x7F800000#32
  let main_v1 : FVec F S32x768 .f32 := broadcastInDim S32x768 ![] bcast_S_S32x768 main_cst
  let main_v2 : IVec S32x768 1 := cmpf .olt main_v0 main_v1
  let main_c : IVec S_ 1 := constantI S_ 1 1#1
  let main_v3 : IVec S_ 1 := (fun x v => Host.reduce IntOp.andi x v reducesTo_S32x768_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S256x768x768 .f32 := Host.absf main_arg3
  let main_cst_4 : FVec F S_ .f32 := constant S_ .f32 0x7F800000#32
  let main_v15 : FVec F S256x768x768 .f32 := broadcastInDim S256x768x768 ![] bcast_S_S256x768x768 main_cst_4
  let main_v16 : IVec S256x768x768 1 := cmpf .olt main_v14 main_v15
  fn_part1 (F := F) main_v13 main_v16
-- ==== Kernel.lean ====
abbrev S32x768 : Shape := ⟨2, ![32, 768]⟩
abbrev S256x768 : Shape := ⟨2, ![256, 768]⟩
abbrev S256x768x768 : Shape := ⟨3, ![256, 768, 768]⟩
abbrev S256x32 : Shape := ⟨2, ![256, 32]⟩
abbrev S16x768 : Shape := ⟨2, ![16, 768]⟩
abbrev S16x768x256 : Shape := ⟨3, ![16, 768, 256]⟩
abbrev S16x32 : Shape := ⟨2, ![16, 32]⟩
abbrev S16x32x768 : Shape := ⟨3, ![16, 32, 768]⟩
abbrev S1x32x768 : Shape := ⟨3, ![1, 32, 768]⟩
abbrev S16x1x768 : Shape := ⟨3, ![16, 1, 768]⟩
abbrev S16x32x256 : Shape := ⟨3, ![16, 32, 256]⟩
abbrev S32x256 : Shape := ⟨2, ![32, 256]⟩

abbrev nBuf : Space → Nat
  | .hbm => 6
  | .vmem => 11
  | .smem => 0
  | _ => 0

abbrev bufTy : (tb : Table) → Fin (tcTables nBuf tb) → BufTy
  | .hbm, ⟨0, _⟩ => ⟨S32x768, .f32⟩
  | .hbm, ⟨1, _⟩ => ⟨S256x768, .f32⟩
  | .hbm, ⟨2, _⟩ => ⟨S256x768, .f32⟩
  | .hbm, ⟨3, _⟩ => ⟨S256x768x768, .f32⟩
  | .hbm, ⟨4, _⟩ => ⟨S256x32, .f32⟩
  | .hbm, ⟨5, _⟩ => ⟨S32x256, .f32⟩
  | .local _ .vmem, ⟨0, _⟩ => ⟨S32x768, .f32⟩
  | .local _ .vmem, ⟨1, _⟩ => ⟨S16x768, .f32⟩
  | .local _ .vmem, ⟨2, _⟩ => ⟨S16x768, .f32⟩
  | .local _ .vmem, ⟨3, _⟩ => ⟨S16x768, .f32⟩
  | .local _ .vmem, ⟨4, _⟩ => ⟨S16x768, .f32⟩
  | .local _ .vmem, ⟨5, _⟩ => ⟨S16x768x256, .f32⟩
  | .local _ .vmem, ⟨6, _⟩ => ⟨S16x768x256, .f32⟩
  | .local _ .vmem, ⟨7, _⟩ => ⟨S16x32, .f32⟩
  | .local _ .vmem, ⟨8, _⟩ => ⟨S16x32, .f32⟩
  | .local _ .vmem, ⟨9, _⟩ => ⟨S16x32x768, .bf16⟩
  | .local _ .vmem, ⟨10, _⟩ => ⟨S16x32, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 3], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0_6 : Index := 0#32
  let c0_7 : Index := 0#32
  let arg1 : BitVec 32 := BitVec.ofNat 32 (i 1).val
  let c256_i32 : BitVec 32 := 256#32
  let v3 : BitVec 32 := Scalar.muli arg1 c256_i32
  let v4 : BitVec 32 := v3
  let v9 : Index := Scalar.indexCast v4
  ![0, 0, v9.toNat]
def k0_cond2 (i : grid0.Coords) : BitVec 1 :=
  let arg1 : BitVec 32 := BitVec.ofNat 32 (i 1).val
  let c2_i32 : BitVec 32 := 2#32
  let v19 : BitVec 1 := Scalar.cmpi .eq arg1 c2_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S32x768_S32x768_0_0 : ∀ a, (![0, 0] : Fin 2 → Nat) a + S32x768.size a ≤ S32x768.size a
  h_S32x768 : 0 < S32x768.numel
  shapeCasts_S32x768_S1x32x768 : S32x768.ShapeCasts S1x32x768
  inb_S16x768_S16x768_0_0 : ∀ a, (![0, 0] : Fin 2 → Nat) a + S16x768.size a ≤ S16x768.size a
  h_S16x768 : 0 < S16x768.numel
  shapeCasts_S16x768_S16x1x768 : S16x768.ShapeCasts S16x1x768
  broadcasts_S1x32x768_S16x32x768 : S1x32x768.Broadcasts S16x32x768
  broadcasts_S16x1x768_S16x32x768 : S16x1x768.Broadcasts S16x32x768
  bitsLt_bf16_f32 : FTy.bits .bf16 < FTy.bits .f32
  inb_S16x32x768_S16x32x768_0_0_0 : ∀ a, (![0, 0, 0] : Fin 3 → Nat) a + S16x32x768.size a ≤ S16x32x768.size a
  h_S16x32x768 : 0 < S16x32x768.numel
  shapeCasts_S16x32x768_S16x32x768 : S16x32x768.ShapeCasts S16x32x768
  packedbf16_S16x32x768_S16x32x768_0_0_0 : (Rect.unit (s := S16x32x768) ![0, 0, 0] S16x32x768.size inb_S16x32x768_S16x32x768_0_0_0).PackedRows (EltTy.packing .bf16)
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S16x768x256_S16x768x256_0_0_0 : ∀ a, (![0, 0, 0] : Fin 3 → Nat) a + S16x768x256.size a ≤ S16x768x256.size a
  h_S16x768x256 : 0 < S16x768x256.numel
  h_S16x32x256 : 0 < S16x32x256.numel
  reduces_S16x32x256_S16x32 : S16x32x256.Reduces [2] S16x32
  transposes_S256x32_S32x256_1_0 : S256x32.Transposes [1, 0] S32x256
  dot_S16x32x768_S16x768x256_S16x32x256_2_1_1_2_0_0_wf : DotDims.WF S16x32x768 S16x768x256 S16x32x256 [2] [1] [1] [2] [0] [0]
  hrank0 : 0 < grid0.rank
  k0_mult1_dvd : ∀ i : grid0.Coords, 256 ∣ (k0_mult1 i).toNat
  k0_off1_inb : ∀ i : grid0.Coords, ∀ a, (k0_off1 i) a + S16x32x256.size a ≤ S16x32x768.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x768.size a ≤ S32x768.size a
  hwx0_0 : ∀ i : grid0.Coords, EltTy.bits .f32 = 32 ∨ (Rect.block (s := S32x768) S32x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x768.size a ≤ S256x768.size a
  hwx0_1 : ∀ i : grid0.Coords, EltTy.bits .f32 = 32 ∨ (Rect.block (s := S256x768) S16x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x768.size a ≤ S256x768.size a
  hwx0_2 : ∀ i : grid0.Coords, EltTy.bits .f32 = 32 ∨ (Rect.block (s := S256x768) S16x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x768x256.size a ≤ S256x768x768.size a
  hwx0_3 : ∀ i : grid0.Coords, EltTy.bits .f32 = 32 ∨ (Rect.block (s := S256x768x768) S16x768x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S256x32.size a
  hwx0_4 : ∀ i : grid0.Coords, EltTy.bits .f32 = 32 ∨ (Rect.block (s := S256x32) S16x32.size (cc0_transform_4 i) (hinb0_4 i)).WholeWords (EltTy.packing .f32)

variable [Facts₀]

def dot_S16x32x768_S16x768x256_S16x32x256_2_1_1_2_0_0 : DotDims S16x32x768 S16x768x256 S16x32x256 where
  lhsContracting := [2]
  rhsContracting := [1]
  lhsNonContracting := [1]
  rhsNonContracting := [2]
  lhsBatch := [0]
  rhsBatch := [0]
  wf := dot_S16x32x768_S16x768x256_S16x32x256_2_1_1_2_0_0_wf

abbrev win0_0 : Pipeline.Window sig grid0 :=
  Pipeline.Window.ofSpec (Memref.whole main_arg0) S32x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x768x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x768 : Shape := ⟨2, ![32, 768]⟩
abbrev S256x768 : Shape := ⟨2, ![256, 768]⟩
abbrev S256x768x768 : Shape := ⟨3, ![256, 768, 768]⟩
abbrev S1x32x768 : Shape := ⟨3, ![1, 32, 768]⟩
abbrev S256x1x768 : Shape := ⟨3, ![256, 1, 768]⟩
abbrev S256x32x768 : Shape := ⟨3, ![256, 32, 768]⟩
abbrev S_ : Shape := ⟨0, ![]⟩
abbrev S256x32 : Shape := ⟨2, ![256, 32]⟩
abbrev S32x256 : Shape := ⟨2, ![32, 256]⟩

abbrev nBuf : Space → Nat
  | .hbm => 19
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S256x768, .f32⟩
  | .hbm, ⟨2, _⟩ => ⟨S256x768, .f32⟩
  | .hbm, ⟨3, _⟩ => ⟨S256x768x768, .f32⟩
  | .hbm, ⟨4, _⟩ => ⟨S1x32x768, .f32⟩
  | .hbm, ⟨5, _⟩ => ⟨S256x1x768, .f32⟩
  | .hbm, ⟨6, _⟩ => ⟨S256x32x768, .f32⟩
  | .hbm, ⟨7, _⟩ => ⟨S256x32x768, .f32⟩
  | .hbm, ⟨8, _⟩ => ⟨S256x32x768, .f32⟩
  | .hbm, ⟨9, _⟩ => ⟨S256x768, .f32⟩
  | .hbm, ⟨10, _⟩ => ⟨S256x1x768, .f32⟩
  | .hbm, ⟨11, _⟩ => ⟨S256x32x768, .f32⟩
  | .hbm, ⟨12, _⟩ => ⟨S256x32x768, .f32⟩
  | .hbm, ⟨13, _⟩ => ⟨S256x32x768, .f32⟩
  | .hbm, ⟨14, _⟩ => ⟨S256x32x768, .f32⟩
  | .hbm, ⟨15, _⟩ => ⟨S_, .f32⟩
  | .hbm, ⟨16, _⟩ => ⟨S256x32, .f32⟩
  | .hbm, ⟨17, _⟩ => ⟨S32x256, .f32⟩
  | .hbm, ⟨18, _⟩ => ⟨S32x256, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  bcast_S32x768_S1x32x768_1_2 : S32x768.BroadcastsInDim S1x32x768 (![1, 2] : Fin 2 → Fin S1x32x768.rank)
  bcast_S256x768_S256x1x768_0_2 : S256x768.BroadcastsInDim S256x1x768 (![0, 2] : Fin 2 → Fin S256x1x768.rank)
  bcast_S1x32x768_S256x32x768_0_1_2 : S1x32x768.BroadcastsInDim S256x32x768 (![0, 1, 2] : Fin 3 → Fin S256x32x768.rank)
  bcast_S256x1x768_S256x32x768_0_1_2 : S256x1x768.BroadcastsInDim S256x32x768 (![0, 1, 2] : Fin 3 → Fin S256x32x768.rank)
  reducesTo_S256x32x768_S256x32_d2 : S256x32x768.ReducesTo [2] S256x32
  h_S_ : 0 < S_.numel
  transposes_S256x32_S32x256_1_0 : S256x32.Transposes [1, 0] S32x256
  dot_S256x32x768_S256x768x768_S256x32x768_2_1_1_2_0_0_wf : DotDims.WF S256x32x768 S256x768x768 S256x32x768 [2] [1] [1] [2] [0] [0]

variable [Facts₀]

def dot_S256x32x768_S256x768x768_S256x32x768_2_1_1_2_0_0 : DotDims S256x32x768 S256x768x768 S256x32x768 where
  lhsContracting := [2]
  rhsContracting := [1]
  lhsNonContracting := [1]
  rhsNonContracting := [2]
  lhsBatch := [0]
  rhsBatch := [0]
  wf := dot_S256x32x768_S256x768x768_S256x32x768_2_1_1_2_0_0_wf

class Facts : Prop extends Facts₀ where

variable [Facts]
-- ==== Proof.LibLayout3.lean ====
/-
  Three layout operations on arrays of rank 3, read at an index written by its coordinates, for any extents:
  a matrix `[a, b]` given a unit middle axis `[a, 1, b]` reads the same entry; a `[1, b, c]` array broadcast to
  `[a, b, c]` reads its one slab; an `[a, 1, c]` array broadcast to `[a, b, c]` reads its one row per slab.
  (The row-major position of `(i, 0, j)` in `[a, 1, b]` is `(i·1 + 0)·b + j = i·b + j`, that of `(i, j)` in `[a, b]`.)
-/
import Idealize.ShloMosaic.Lib.Pipeline.Value
import Idealize.ShloMosaic.Lib.ValueIdx

namespace Layout3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b, c]` array broadcast to `[a, b, c]` reads, at `(i, j, k)`, the operand's one slab at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand's one row of slab `i` at `k`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout3
-- ==== Proof.Payloads.lean ====
/-
  What the kernel body computes at a grid point, entry by entry, on the extended reals.

  The body has four stores. With `x` the samples' block, `μ`, `σ` the blocks of 16 classes' means and scales, `A` the block
  of those classes' matrices restricted to 256 output features, `Δ` the difference scratch and `acc` the running total:
    • the difference scratch gets  Δ(p,b,d) = x(b,d)/σ(p,d) − μ(p,d)/σ(p,d)   (a change of float format is the identity);
    • the running total is reset to 0;
    • the running total gets  acc(p,b) + ∑_{k<256} (∑_{d<768} Δ(p,b,d) · A(p,d,k)) · Δ'(p,b,k),  where Δ' is the window of
      256 features of Δ starting at feature 256·j, j the point's second grid coordinate;
    • the output block gets  0 − acc(p,b).
-/
import proofs.«112128_j25185688224305_2_alg».proof.Proof.Gen.KernelIdeal.Skeleton
import proofs.«112128_j25185688224305_2_alg».proof.Proof.LibLayout3
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The window of the difference scratch a point multiplies with -/

/-- The 256 features of the difference scratch starting at the point's feature offset. -/
def featSlice {F : FTy → Type} (i : grid0.Coords) (D : Vec F S16x32x768 .bf16) : Vec F S16x32x256 .bf16 :=
  View.ld D (Rect.unit (s := S16x32x768) (k0_off1 i) S16x32x256.size (k0_off1_inb i))

/-- It reads feature `256·j + k` at `k`, `j` the point's second grid coordinate. -/
theorem featSlice_apply (i : grid0.Coords) (D : FVec Ideal S16x32x768 .bf16) (p : Fin 16) (b : Fin 32) (k : Fin 256)
    (h : 256 * (i 1).val + k.val < 768) :
    featSlice (F := Ideal) i D (ix3 p b k) = D (ix3 p b ⟨256 * (i 1).val + k.val, h⟩) := by
  unfold featSlice View.ld
  refine congrArg D (funext fun a => Fin.ext ?_)
  have e := k0_off1_eq i
  match a with
  | ⟨0, _⟩ =>
    show k0_off1 i 0 + 1 * p.val = p.val
    rw [e]; show 0 + 1 * p.val = p.val; omega
  | ⟨1, _⟩ =>
    show k0_off1 i 1 + 1 * b.val = b.val
    rw [e]; show 0 + 1 * b.val = b.val; omega
  | ⟨2, _⟩ =>
    show k0_off1 i 2 + 1 * k.val = 256 * (i 1).val + k.val
    rw [e]; show 256 * (i 1).val + 1 * k.val = 256 * (i 1).val + k.val; omega

/-! ## The four stores -/

/-- The difference: `x(b,d)/σ(p,d) − μ(p,d)/σ(p,d)`. -/
theorem pay1_apply (x0 : FVec Ideal S32x768 .f32) (x1 x2 : FVec Ideal S16x768 .f32) (p : Fin 16) (b : Fin 32) (d : Fin 768) :
    k0_pay1 (F := Ideal) x0 x2 x1 x2 (ix3 p b d)
      = Ideal.div (x0 (ix2 b d)) (x2 (ix2 p d)) - Ideal.div (x1 (ix2 p d)) (x2 (ix2 p d)) := by
  unfold k0_pay1
  rw [shapeCast_self, truncf_apply, subf_apply, divf_apply, Layout3.broadcastTo_1bc_abc_apply, shapeCast_ab_1ab_apply,
    Layout3.broadcastTo_a1c_abc_apply, Layout3.shapeCast_ab_a1b_apply, Layout3.broadcastTo_a1c_abc_apply,
    Layout3.shapeCast_ab_a1b_apply]
  rfl

/-- The reset: zero. -/
theorem pay2_apply (p : Fin 16) (b : Fin 32) : k0_pay2 (F := Ideal) (ix2 p b) = 0 := by
  unfold k0_pay2
  rw [shapeCast_self]
  exact Ideal.ofBits_zero_f32

/-- The output block: zero minus the running total. -/
theorem pay4_apply (acc : FVec Ideal S16x32 .f32) (p : Fin 16) (b : Fin 32) :
    k0_pay4 (F := Ideal) acc (ix2 p b) = 0 - acc (ix2 p b) := by
  unfold k0_pay4
  rw [subf_apply]
  exact congrArg (· - acc (ix2 p b)) Ideal.ofBits_zero_f32

/-! ## The matrix product's index maps: class `p` is the batch, feature `d` is contracted -/

/-- The body's one matrix product: per class, samples × features times features × output features. -/
abbrev KD : DotDims S16x32x768 S16x768x256 S16x32x256 := dot_S16x32x768_S16x768x256_S16x32x256_2_1_1_2_0_0

theorem lhs_0 (j : S16x32x256.Idx) (q : KD.contr.Idx) : (KD.lhsIdx j q 0).val = (j 0).val := by
  unfold DotDims.lhsIdx
  rw [dif_pos (show (0 : Fin S16x32x768.rank) ∈ KD.lhsBatch by decide)]
  rfl
theorem lhs_1 (j : S16x32x256.Idx) (q : KD.contr.Idx) : (KD.lhsIdx j q 1).val = (j 1).val := by
  unfold DotDims.lhsIdx
  rw [dif_neg (show ¬(1 : Fin S16x32x768.rank) ∈ KD.lhsBatch by decide),
    dif_pos (show (1 : Fin S16x32x768.rank) ∈ KD.lhsNonContracting by decide)]
  rfl
theorem lhs_2 (j : S16x32x256.Idx) (q : KD.contr.Idx) : (KD.lhsIdx j q 2).val = (q ⟨0, by decide⟩).val :=
  KD.lhsIdx_val_of_single rfl j q
theorem rhs_0 (j : S16x32x256.Idx) (q : KD.contr.Idx) : (KD.rhsIdx j q 0).val = (j 0).val := by
  unfold DotDims.rhsIdx
  rw [dif_pos (show (0 : Fin S16x768x256.rank) ∈ KD.rhsBatch by decide)]
  rfl
theorem rhs_1 (j : S16x32x256.Idx) (q : KD.contr.Idx) : (KD.rhsIdx j q 1).val = (q ⟨0, by decide⟩).val :=
  KD.rhsIdx_val_of_single rfl j q
theorem rhs_2 (j : S16x32x256.Idx) (q : KD.contr.Idx) : (KD.rhsIdx j q 2).val = (j 2).val := by
  unfold DotDims.rhsIdx
  rw [dif_neg (show ¬(2 : Fin S16x768x256.rank) ∈ KD.rhsBatch by decide),
    dif_pos (show (2 : Fin S16x768x256.rank) ∈ KD.rhsNonContracting by decide)]
  rfl

/-- The product into a zero accumulator, at class `p`, sample `b`, output feature `k`: `∑_d Δ(p,b,d) · A(p,d,k)`. -/
theorem matmul_apply (D : FVec Ideal S16x32x768 .bf16) (A : FVec Ideal S16x768x256 .bf16) (p : Fin 16) (b : Fin 32) (k : Fin 256) :
    FloatOps.matmul KD none D A (constant (F := Ideal) S16x32x256 .f32 0x00000000#32) (ix3 p b k)
      = ∑ d : Fin 768, D (ix3 p b d) * A (ix3 p d k) := by
  rw [Ideal.matmul_constant_zero_apply, ← Equiv.sum_comp (contrEquiv1 KD 768 rfl rfl).symm]
  refine Finset.sum_congr rfl fun d _ => ?_
  have hk := contrEquiv1_symm_val KD 768 rfl rfl d
  have el : KD.lhsIdx (ix3 p b k) ((contrEquiv1 KD 768 rfl rfl).symm d) = ix3 p b d := funext fun a => Fin.ext (by
    match a with
    | ⟨0, _⟩ => exact lhs_0 _ _
    | ⟨1, _⟩ => exact lhs_1 _ _
    | ⟨2, _⟩ => exact (lhs_2 _ _).trans hk)
  have er : KD.rhsIdx (ix3 p b k) ((contrEquiv1 KD 768 rfl rfl).symm d) = ix3 p d k := funext fun a => Fin.ext (by
    match a with
    | ⟨0, _⟩ => exact rhs_0 _ _
    | ⟨1, _⟩ => exact (rhs_1 _ _).trans hk
    | ⟨2, _⟩ => exact rhs_2 _ _)
  rw [el, er]

/-- The accumulation: `acc(p,b) + ∑_{k<256} (∑_{d<768} Δ(p,b,d) · A(p,d,k)) · Δ'(p,b,k)`. -/
theorem pay3_apply (x3 : FVec Ideal S16x768x256 .f32) (D : FVec Ideal S16x32x768 .bf16) (Ds : FVec Ideal S16x32x256 .bf16)
    (acc : FVec Ideal S16x32 .f32) (p : Fin 16) (b : Fin 32) :
    k0_pay3 (F := Ideal) x3 D Ds acc (ix2 p b)
      = acc (ix2 p b) + ∑ k : Fin 256, (∑ d : Fin 768, D (ix3 p b d) * x3 (ix3 p d k)) * Ds (ix3 p b k) := by
  unfold k0_pay3
  dsimp only
  rw [shapeCast_self, addf_apply]
  refine congrArg (acc (ix2 p b) + ·) ?_
  refine (Ideal.multiReduction_add_single _ 0x00000000#32 reduces_S16x32x256_S16x32 (.inl rfl) rfl (ix2 p b)).trans ?_
  refine Finset.sum_congr (s₁ := (Finset.univ : Finset (Fin 256))) rfl fun k _ => ?_
  have hl : reduces_S16x32x256_S16x32.lift (ix2 p b) k = ix3 p b k :=
    funext fun a => Fin.ext (by match a with | ⟨0, _⟩ => rfl | ⟨1, _⟩ => rfl | ⟨2, _⟩ => rfl)
  rw [hl, mulf_apply, extf_apply]
  refine congrArg (· * Ds (ix3 p b k)) ?_
  exact matmul_apply D (truncf .bf16 x3 bitsLt_bf16_f32) p b k

end Cert.KernelIdeal.Pay

end
-- ==== Proof.Pieces.lean ====
/-
  What each of the body's three control cases leaves behind, as the body's own arithmetic of what it was handed.

  At a point whose second grid coordinate is 0 the body first fills the difference scratch and resets the running
  total, then accumulates; elsewhere it accumulates into what the point before left; at second coordinate 2 it also
  writes the output block. Each store covers its whole buffer, so what a buffer ends holding is its last store's
  value, and a load that follows a store reads that store's value:
    • first points:   scratch Δ := diff(x, σ, μ, σ);  total := step(A, Δ, window(Δ), 0-block);
    • middle points:  Δ kept;                          total := step(A, Δ, window(Δ), total before);
    • last points:    as the middle ones, and          output := 0 − (the new total).
-/
import proofs.«112128_j25185688224305_2_alg».proof.Proof.Gen.KernelIdeal.Frame
import proofs.«112128_j25185688224305_2_alg».proof.Proof.Payloads
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First points: the difference scratch ends at the difference of the point's blocks. -/
theorem scratchA0 (c : Dev nD) (i : grid0.Coords) (arg2 : Memref sig .tc .vmem S32x768 .f32) (harg2 : arg2.IsWhole) (arg3 : Memref sig .tc .vmem S16x768 .f32) (harg3 : arg3.IsWhole) (arg4 : Memref sig .tc .vmem S16x768 .f32) (harg4 : arg4.IsWhole) (arg5 : Memref sig .tc .vmem S16x768x256 .f32) (harg5 : arg5.IsWhole) (arg6 : Memref sig .tc .vmem S16x32 .f32) (harg6 : arg6.IsWhole) (arg7 : Memref sig .tc .vmem S16x32x768 .bf16) (harg7 : arg7.IsWhole) (arg8 : Memref sig .tc .vmem S16x32 .f32) (harg8 : arg8.IsWhole) (hc0 : cond0_0 i) (hc1 : ¬cond0_1 i) (x0 : Vec F S32x768 .f32) (x1 : Vec F S16x768 .f32) (x2 : Vec F S16x768 .f32) (x3 : Vec F S16x768x256 .f32) :
    sout0_A_0 c i arg2 harg2 arg3 harg3 arg4 harg4 arg5 harg5 arg6 harg6 arg7 harg7 arg8 harg8 hc0 hc1 x0 x1 x2 x3 = k0_pay1 x0 x2 x1 x2 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S32x768) hz2, View.ld_unit_zero (S := S16x768) hz2, View.ld_unit_zero (S := S16x768x256) hz3]

/-- First points: the running total ends at one accumulation step from the zero block, over the fresh difference. -/
theorem scratchA1 (c : Dev nD) (i : grid0.Coords) (arg2 : Memref sig .tc .vmem S32x768 .f32) (harg2 : arg2.IsWhole) (arg3 : Memref sig .tc .vmem S16x768 .f32) (harg3 : arg3.IsWhole) (arg4 : Memref sig .tc .vmem S16x768 .f32) (harg4 : arg4.IsWhole) (arg5 : Memref sig .tc .vmem S16x768x256 .f32) (harg5 : arg5.IsWhole) (arg6 : Memref sig .tc .vmem S16x32 .f32) (harg6 : arg6.IsWhole) (arg7 : Memref sig .tc .vmem S16x32x768 .bf16) (harg7 : arg7.IsWhole) (arg8 : Memref sig .tc .vmem S16x32 .f32) (harg8 : arg8.IsWhole) (hc0 : cond0_0 i) (hc1 : ¬cond0_1 i) (x0 : Vec F S32x768 .f32) (x1 : Vec F S16x768 .f32) (x2 : Vec F S16x768 .f32) (x3 : Vec F S16x768x256 .f32) :
    sout0_A_1 c i arg2 harg2 arg3 harg3 arg4 harg4 arg5 harg5 arg6 harg6 arg7 harg7 arg8 harg8 hc0 hc1 x0 x1 x2 x3
      = k0_pay3 x3 (k0_pay1 x0 x2 x1 x2) (Pay.featSlice i (k0_pay1 x0 x2 x1 x2)) k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S16x32) hz2, View.readCov_unit_zero (S := S16x32x768) _ hz3,
    View.readCov_unit_zero (S := S16x32) _ hz2]
  simp only [View.readAt_eq_ld, harg2.read_unread, harg3.read_unread, harg4.read_unread, harg5.read_unread,
    View.ld_unit_zero (S := S32x768) hz2, View.ld_unit_zero (S := S16x768) hz2, View.ld_unit_zero (S := S16x768x256) hz3]
  rw [View.read_writes_eq_canon _ _ _ (fun y => ⟨_, List.mem_singleton_self _, View.mem_set_unit_zero hz3 inb_S16x32x768_S16x32x768_0_0_0 y⟩),
    View.canon_unit_zero hz3]
  rfl

/-- Middle points: the running total ends at one accumulation step from what the point before left. -/
theorem scratchB1 (c : Dev nD) (i : grid0.Coords) (arg2 : Memref sig .tc .vmem S32x768 .f32) (harg2 : arg2.IsWhole) (arg3 : Memref sig .tc .vmem S16x768 .f32) (harg3 : arg3.IsWhole) (arg4 : Memref sig .tc .vmem S16x768 .f32) (harg4 : arg4.IsWhole) (arg5 : Memref sig .tc .vmem S16x768x256 .f32) (harg5 : arg5.IsWhole) (arg6 : Memref sig .tc .vmem S16x32 .f32) (harg6 : arg6.IsWhole) (arg7 : Memref sig .tc .vmem S16x32x768 .bf16) (harg7 : arg7.IsWhole) (arg8 : Memref sig .tc .vmem S16x32 .f32) (harg8 : arg8.IsWhole) (hc0 : ¬cond0_0 i) (hc1 : ¬cond0_1 i) (x0 : Vec F S32x768 .f32) (x1 : Vec F S16x768 .f32) (x2 : Vec F S16x768 .f32) (x3 : Vec F S16x768x256 .f32) (xs0 : Vec F S16x32x768 .bf16) (xs1 : Vec F S16x32 .f32) :
    sout0_B_1 c i arg2 harg2 arg3 harg3 arg4 harg4 arg5 harg5 arg6 harg6 arg7 harg7 arg8 harg8 hc0 hc1 x0 x1 x2 x3 xs0 xs1 = k0_pay3 x3 xs0 (Pay.featSlice i xs0) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg5.read_unread, harg7.read_unread, harg8.read_unread,
    View.ld_unit_zero (S := S16x768x256) hz3, View.ld_unit_zero (S := S16x32x768) hz3, View.ld_unit_zero (S := S16x32) hz2]
  rfl

/-- Last points: the running total likewise. -/
theorem scratchC1 (c : Dev nD) (i : grid0.Coords) (arg2 : Memref sig .tc .vmem S32x768 .f32) (harg2 : arg2.IsWhole) (arg3 : Memref sig .tc .vmem S16x768 .f32) (harg3 : arg3.IsWhole) (arg4 : Memref sig .tc .vmem S16x768 .f32) (harg4 : arg4.IsWhole) (arg5 : Memref sig .tc .vmem S16x768x256 .f32) (harg5 : arg5.IsWhole) (arg6 : Memref sig .tc .vmem S16x32 .f32) (harg6 : arg6.IsWhole) (arg7 : Memref sig .tc .vmem S16x32x768 .bf16) (harg7 : arg7.IsWhole) (arg8 : Memref sig .tc .vmem S16x32 .f32) (harg8 : arg8.IsWhole) (hc0 : ¬cond0_0 i) (hc1 : cond0_1 i) (x0 : Vec F S32x768 .f32) (x1 : Vec F S16x768 .f32) (x2 : Vec F S16x768 .f32) (x3 : Vec F S16x768x256 .f32) (xs0 : Vec F S16x32x768 .bf16) (xs1 : Vec F S16x32 .f32) :
    sout0_C_1 c i arg2 harg2 arg3 harg3 arg4 harg4 arg5 harg5 arg6 harg6 arg7 harg7 arg8 harg8 hc0 hc1 x0 x1 x2 x3 xs0 xs1 = k0_pay3 x3 xs0 (Pay.featSlice i xs0) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg5.read_unread, harg7.read_unread, harg8.read_unread,
    View.ld_unit_zero (S := S16x768x256) hz3, View.ld_unit_zero (S := S16x32x768) hz3, View.ld_unit_zero (S := S16x32) hz2]
  rfl

/-- Last points: the output block ends at zero minus the new running total. -/
theorem outC4 (c : Dev nD) (i : grid0.Coords) (arg2 : Memref sig .tc .vmem S32x768 .f32) (harg2 : arg2.IsWhole) (arg3 : Memref sig .tc .vmem S16x768 .f32) (harg3 : arg3.IsWhole) (arg4 : Memref sig .tc .vmem S16x768 .f32) (harg4 : arg4.IsWhole) (arg5 : Memref sig .tc .vmem S16x768x256 .f32) (harg5 : arg5.IsWhole) (arg6 : Memref sig .tc .vmem S16x32 .f32) (harg6 : arg6.IsWhole) (arg7 : Memref sig .tc .vmem S16x32x768 .bf16) (harg7 : arg7.IsWhole) (arg8 : Memref sig .tc .vmem S16x32 .f32) (harg8 : arg8.IsWhole) (hc0 : ¬cond0_0 i) (hc1 : cond0_1 i) (x0 : Vec F S32x768 .f32) (x1 : Vec F S16x768 .f32) (x2 : Vec F S16x768 .f32) (x3 : Vec F S16x768x256 .f32) (xs0 : Vec F S16x32x768 .bf16) (xs1 : Vec F S16x32 .f32) :
    out0_C_4 c i arg2 harg2 arg3 harg3 arg4 harg4 arg5 harg5 arg6 harg6 arg7 harg7 arg8 harg8 hc0 hc1 x0 x1 x2 x3 xs0 xs1 = k0_pay4 (k0_pay3 x3 xs0 (Pay.featSlice i xs0) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2, View.readCov_unit_zero (S := S16x32) _ hz2]
  simp only [View.readAt_eq_ld, harg5.read_unread, harg7.read_unread, harg8.read_unread,
    View.ld_unit_zero (S := S16x768x256) hz3, View.ld_unit_zero (S := S16x32x768) hz3, View.ld_unit_zero (S := S16x32) hz2]
  rfl

end Cert.KernelIdeal.Pieces

end
-- ==== Proof.Cases.lean ====
/-
  What the buffers carried from point to point hold after each point, by the point's place in its class block.

  The 48 points come in 16 runs of three (one run per block of 16 classes). After the FIRST point of a run the
  difference scratch holds the fresh difference of the point's blocks and the running total one accumulation step
  from zero. After a LATER point the difference scratch is what the point before left, and the running total is one
  step from what the point before left. After the LAST point of a run the output block is zero minus that total.
-/
import proofs.«112128_j25185688224305_2_alg».proof.Proof.Pieces

set_option maxRecDepth 16384

noncomputable section

namespace Cert.KernelIdeal.Cases

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- After the first point of a run. -/
theorem at_first (c : Dev nD) (t : Fin cfg0.N) (h0 : t.val % 3 = 0) :
    (outsAt0 m c t.val t.isLt).2.1 = (k0_pay1 (iblk m c 0 t) (iblk m c 2 t) (iblk m c 1 t) (iblk m c 2 t))
    ∧ (outsAt0 m c t.val t.isLt).2.2
        = k0_pay3 (iblk m c 3 t) (k0_pay1 (iblk m c 0 t) (iblk m c 2 t) (iblk m c 1 t) (iblk m c 2 t)) (Pay.featSlice (grid0.coords t) (k0_pay1 (iblk m c 0 t) (iblk m c 2 t) (iblk m c 1 t) (iblk m c 2 t))) k0_pay2 := by
  have h1 : ¬t.val % 3 = 2 := by omega
  rw [outsAt0_A m c t h0 h1]
  dsimp only
  exact ⟨Pieces.scratchA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    Pieces.scratchA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)⟩

/-- After the middle point of a run. -/
theorem at_middle (c : Dev nD) (t : Fin cfg0.N) (h0 : ¬t.val % 3 = 0) (h1 : ¬t.val % 3 = 2) :
    (outsAt0 m c t.val t.isLt).2.1 = (outsAt0 m c (t.val - 1) (Nat.lt_of_le_of_lt (Nat.sub_le _ _) t.isLt)).2.1
    ∧ (outsAt0 m c t.val t.isLt).2.2
        = k0_pay3 (iblk m c 3 t) (outsAt0 m c (t.val - 1) (Nat.lt_of_le_of_lt (Nat.sub_le _ _) t.isLt)).2.1 (Pay.featSlice (grid0.coords t) (outsAt0 m c (t.val - 1) (Nat.lt_of_le_of_lt (Nat.sub_le _ _) t.isLt)).2.1) (outsAt0 m c (t.val - 1) (Nat.lt_of_le_of_lt (Nat.sub_le _ _) t.isLt)).2.2 := by
  rw [outsAt0_B m c t h0 h1]
  dsimp only
  exact ⟨rfl, Pieces.scratchB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

/-- After the last point of a run. -/
theorem at_last (c : Dev nD) (t : Fin cfg0.N) (h0 : ¬t.val % 3 = 0) (h1 : t.val % 3 = 2) :
    (outsAt0 m c t.val t.isLt).2.1 = (outsAt0 m c (t.val - 1) (Nat.lt_of_le_of_lt (Nat.sub_le _ _) t.isLt)).2.1
    ∧ (outsAt0 m c t.val t.isLt).2.2
        = k0_pay3 (iblk m c 3 t) (outsAt0 m c (t.val - 1) (Nat.lt_of_le_of_lt (Nat.sub_le _ _) t.isLt)).2.1 (Pay.featSlice (grid0.coords t) (outsAt0 m c (t.val - 1) (Nat.lt_of_le_of_lt (Nat.sub_le _ _) t.isLt)).2.1) (outsAt0 m c (t.val - 1) (Nat.lt_of_le_of_lt (Nat.sub_le _ _) t.isLt)).2.2
    ∧ (outsAt0 m c t.val t.isLt).1
        = k0_pay4 (k0_pay3 (iblk m c 3 t) (outsAt0 m c (t.val - 1) (Nat.lt_of_le_of_lt (Nat.sub_le _ _) t.isLt)).2.1 (Pay.featSlice (grid0.coords t) (outsAt0 m c (t.val - 1) (Nat.lt_of_le_of_lt (Nat.sub_le _ _) t.isLt)).2.1) (outsAt0 m c (t.val - 1) (Nat.lt_of_le_of_lt (Nat.sub_le _ _) t.isLt)).2.2) := by
  rw [outsAt0_C m c t h0 h1]
  dsimp only
  exact ⟨rfl, Pieces.scratchC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    Pieces.outC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

end Cert.KernelIdeal.Cases

end
-- ==== Proof.Blocks.lean ====
/-
  Which entries of the argument arrays a grid point's blocks hold.

  The grid has 16 × 3 points; point number `n` has first coordinate `n / 3` (a block of 16 classes) and second coordinate
  `n % 3` (a block of 256 output features). Row `p` of a class block at point `n` is class `16·(n/3) + p`; column `k` of a
  feature block is feature `256·(n%3) + k`. The samples' window is the whole array at every point; the means' and
  scales' windows hold the point's 16 classes; the matrices' window holds those classes' matrices restricted to the
  point's 256 output features. A block's entry `y` is the array's entry at (block index) × (block size) + `y` on each axis.
-/
import proofs.«112128_j25185688224305_2_alg».proof.Proof.Gen.KernelIdeal.Frame
import proofs.«112128_j25185688224305_2_alg».proof.Proof.Payloads
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem

/-- The class held by row `p` of a class block at point number `n`. -/
def cls (n : ℕ) (hn : n < 48) (p : Fin 16) : Fin 256 := ⟨16 * (n / 3) + p.val, by omega⟩

/-- The output feature held by column `k` of a feature block at point number `n`. -/
def feat (n : ℕ) (k : Fin 256) : Fin 768 := ⟨256 * (n % 3) + k.val, by omega⟩

theorem lt48 (t : Fin cfg0.N) : t.val < 48 := lt_of_lt_of_eq t.isLt (show cfg0.N = 48 from N_0)

/-- The printed index maps and the second grid coordinate, decided over the 48 points. -/
theorem idx_facts : ∀ t : Fin cfg0.N,
    win0_0.index t (0 : Fin 2) = 0 ∧ win0_0.index t (1 : Fin 2) = 0
    ∧ win0_1.index t (0 : Fin 2) = t.val / 3 ∧ win0_1.index t (1 : Fin 2) = 0
    ∧ win0_2.index t (0 : Fin 2) = t.val / 3 ∧ win0_2.index t (1 : Fin 2) = 0
    ∧ win0_3.index t (0 : Fin 3) = t.val / 3 ∧ win0_3.index t (1 : Fin 3) = 0 ∧ win0_3.index t (2 : Fin 3) = t.val % 3
    ∧ win0_4.index t (0 : Fin 2) = t.val / 3 ∧ win0_4.index t (1 : Fin 2) = 0
    ∧ ((grid0.coords t) 1).val = t.val % 3 :=
  (by decide +kernel : ∀ t : Fin grid0.N, _)

variable {F : FTy → Type} [FloatOps F]
variable (m : (ℓ : Loc nD τ sig) → Buf (Elt F) ℓ)

/-- The samples' block is the whole array. -/
theorem blkX_apply (c : Dev nD) (t : Fin cfg0.N) (b : Fin 32) (d : Fin 768) :
    (iblk m c 0 t : Vec F S32x768 .f32) (ix2 b d) = V m c main_arg0 (ix2 b d) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 32 + 1 * b.val = b.val; rw [e0]; omega
  | ⟨1, _⟩ => show win0_0.index t (1 : Fin 2) * 768 + 1 * d.val = d.val; rw [e1]; omega

/-- The means' block holds the point's 16 classes. -/
theorem blkMu_apply (c : Dev nD) (t : Fin cfg0.N) (p : Fin 16) (d : Fin 768) :
    (iblk m c 1 t : Vec F S16x768 .f32) (ix2 p d) = V m c main_arg1 (ix2 (cls t.val (lt48 t) p) d) := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 16 + 1 * p.val = 16 * (t.val / 3) + p.val; rw [e0]; omega
  | ⟨1, _⟩ => show win0_1.index t (1 : Fin 2) * 768 + 1 * d.val = d.val; rw [e1]; omega

/-- The scales' block likewise. -/
theorem blkSg_apply (c : Dev nD) (t : Fin cfg0.N) (p : Fin 16) (d : Fin 768) :
    (iblk m c 2 t : Vec F S16x768 .f32) (ix2 p d) = V m c main_arg2 (ix2 (cls t.val (lt48 t) p) d) := by
  obtain ⟨-, -, -, -, e0, e1, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 2) * 16 + 1 * p.val = 16 * (t.val / 3) + p.val; rw [e0]; omega
  | ⟨1, _⟩ => show win0_2.index t (1 : Fin 2) * 768 + 1 * d.val = d.val; rw [e1]; omega

/-- The matrices' block holds the point's 16 classes' matrices at the point's 256 output features. -/
theorem blkA_apply (c : Dev nD) (t : Fin cfg0.N) (p : Fin 16) (d : Fin 768) (k : Fin 256) :
    (iblk m c 3 t : Vec F S16x768x256 .f32) (ix3 p d k)
      = V m c main_arg3 (ix3 (cls t.val (lt48 t) p) d (feat t.val k)) := by
  obtain ⟨-, -, -, -, -, -, e0, e1, e2, -⟩ := idx_facts t
  unfold iblk
  rw [View.read_apply]
  show V m c main_arg3 _ = V m c main_arg3 _
  refine congrArg (V m c main_arg3) (funext fun a => Fin.ext ?_)
  match a with
  | ⟨0, _⟩ => show win0_3.index t (0 : Fin 3) * 16 + 1 * p.val = 16 * (t.val / 3) + p.val; rw [e0]; omega
  | ⟨1, _⟩ => show win0_3.index t (1 : Fin 3) * 768 + 1 * d.val = d.val; rw [e1]; omega
  | ⟨2, _⟩ => show win0_3.index t (2 : Fin 3) * 256 + 1 * k.val = 256 * (t.val % 3) + k.val; rw [e2]; omega

/-- The window of the difference scratch at a point starts at the point's feature block. -/
theorem featSlice_at (t : Fin cfg0.N) (D : FVec Ideal S16x32x768 .bf16) (p : Fin 16) (b : Fin 32) (k : Fin 256) :
    Pay.featSlice (F := Ideal) (grid0.coords t) D (ix3 p b k) = D (ix3 p b (feat t.val k)) := by
  have e : ((grid0.coords t) 1).val = t.val % 3 := (idx_facts t).2.2.2.2.2.2.2.2.2.2.2
  have h : 256 * ((grid0.coords t) 1).val + k.val < 768 := by rw [e]; omega
  rw [Pay.featSlice_apply (grid0.coords t) D p b k h]
  exact congrArg D (congrArg (ix3 p b) (Fin.ext (by
    show 256 * ((grid0.coords t) 1).val + k.val = 256 * (t.val % 3) + k.val
    rw [e])))

end Cert.KernelIdeal.Blocks

end
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.Spec.lean ====
/-
  The class scores as one function of the four argument arrays, on the extended reals.

  For a class `c`, a sample `b` and a feature `d` the normalized difference is
      δ(c,b,d) = x(b,d) / σ(c,d) − μ(c,d) / σ(c,d),
  the quadratic form's term at an output feature `e` is
      τ(c,b,e) = (∑_d δ(c,b,d) · A(c,d,e)) · δ(c,b,e),
  and the score of sample `b` for class `c` is `−(0 + ∑_{e < 768} τ(c,b,e))`.

  The same number is reached by taking the 768 terms up in three blocks of 256, a running total starting from
  `0 + (first block)` and adding one block at a time, and ending with `0 − total`: regrouping a finite sum uses
  only commutativity and associativity of addition, which hold on all of the extended reals, so nothing here asks
  the entries to be finite (a division by a zero `σ` gives the same value on both sides, whatever it is).
-/
import Idealize.ShloMosaic.PureOps.Ideal.Laws
import Idealize.ShloMosaic.Lib.ValueIdx
import proofs.«112128_j25185688224305_2_alg».proof.Proof.LibSumBlocks

noncomputable section

namespace Mahal

open Idealize.ShloMosaic Idealize.ShloMosaic.ValueIdx

/-- The samples `x`: 32 rows of 768 features. -/
abbrev SX : Shape := ⟨2, ![32, 768]⟩
/-- The class means `μ` and the class scales `σ`: 256 rows of 768 features. -/
abbrev SM : Shape := ⟨2, ![256, 768]⟩
/-- The class matrices `A`: 256 matrices of 768 × 768. -/
abbrev SA : Shape := ⟨3, ![256, 768, 768]⟩

variable (x : SX.Idx → EReal) (μ σ : SM.Idx → EReal) (A : SA.Idx → EReal)

/-- δ(c,b,d) = x(b,d) / σ(c,d) − μ(c,d) / σ(c,d). -/
def diff (c : Fin 256) (b : Fin 32) (d : Fin 768) : EReal :=
  Ideal.div (x (ix2 b d)) (σ (ix2 c d)) - Ideal.div (μ (ix2 c d)) (σ (ix2 c d))

/-- τ(c,b,e) = (∑_d δ(c,b,d) · A(c,d,e)) · δ(c,b,e). -/
def term (c : Fin 256) (b : Fin 32) (e : Fin 768) : EReal :=
  (∑ d : Fin 768, diff x μ σ c b d * A (ix3 c d e)) * diff x μ σ c b e

/-- τ with its last index a natural number (zero from 768 on, where nothing reads it). -/
def termN (c : Fin 256) (b : Fin 32) (n : ℕ) : EReal :=
  if h : n < 768 then term x μ σ A c b ⟨n, h⟩ else 0

theorem termN_of_lt (c : Fin 256) (b : Fin 32) (n : ℕ) (h : n < 768) :
    termN x μ σ A c b n = term x μ σ A c b ⟨n, h⟩ := dif_pos h

/-- Block `j` of the quadratic form: the terms at the output features `256·j, …, 256·j + 255`. -/
def blockSum (c : Fin 256) (b : Fin 32) (j : ℕ) : EReal :=
  ∑ k : Fin 256, termN x μ σ A c b (256 * j + k.val)

/-- The running total after block `j`: it starts at `0 + (block 0)` and takes up one block at a time. -/
def running (c : Fin 256) (b : Fin 32) : ℕ → EReal
  | 0 => 0 + blockSum x μ σ A c b 0
  | j + 1 => running c b j + blockSum x μ σ A c b (j + 1)

theorem running_zero (c : Fin 256) (b : Fin 32) :
    running x μ σ A c b 0 = 0 + blockSum x μ σ A c b 0 := rfl

theorem running_succ (c : Fin 256) (b : Fin 32) (j : ℕ) :
    running x μ σ A c b (j + 1) = running x μ σ A c b j + blockSum x μ σ A c b (j + 1) := rfl

/-- One accumulation step adds one block of the quadratic form. For a block of 16 classes `C p` and the feature
    block `j`: if `D` holds the differences of those classes, `B` their matrices restricted to the features
    `256·j + k`, and `D'` the window of `D` at those features, then
    `∑_{k<256} (∑_{d<768} D(p,b,d) · B(p,d,k)) · D'(p,b,k)` is block `j` of the quadratic form of class `C p`. -/
theorem step_eq_blockSum (C : Fin 16 → Fin 256) (j : ℕ) (hj : j < 3)
    (D : (⟨3, ![16, 32, 768]⟩ : Shape).Idx → EReal) (B : (⟨3, ![16, 768, 256]⟩ : Shape).Idx → EReal)
    (D' : (⟨3, ![16, 32, 256]⟩ : Shape).Idx → EReal)
    (hD : ∀ (p : Fin 16) (b : Fin 32) (d : Fin 768), D (ix3 p b d) = diff x μ σ (C p) b d)
    (hB : ∀ (p : Fin 16) (d : Fin 768) (k : Fin 256), B (ix3 p d k) = A (ix3 (C p) d ⟨256 * j + k.val, by omega⟩))
    (hD' : ∀ (p : Fin 16) (b : Fin 32) (k : Fin 256), D' (ix3 p b k) = D (ix3 p b ⟨256 * j + k.val, by omega⟩))
    (p : Fin 16) (b : Fin 32) :
    ∑ k : Fin 256, (∑ d : Fin 768, D (ix3 p b d) * B (ix3 p d k)) * D' (ix3 p b k) = blockSum x μ σ A (C p) b j := by
  unfold blockSum
  refine Finset.sum_congr rfl fun k _ => ?_
  have hk : 256 * j + k.val < 768 := by omega
  rw [termN_of_lt x μ σ A (C p) b _ hk, hD', hD]
  unfold term
  refine congrArg (· * _) (Finset.sum_congr rfl fun d _ => ?_)
  rw [hD, hB]

/-- The score of sample `b` for class `c`: minus the quadratic form, summed in one go from zero. -/
def score (b : Fin 32) (c : Fin 256) : EReal :=
  -(0 + ∑ e : Fin 768, term x μ σ A c b e)

/-- The 768 terms are the three blocks of 256. -/
theorem sum_term_eq_blocks (c : Fin 256) (b : Fin 32) :
    ∑ e : Fin 768, term x μ σ A c b e
      = (blockSum x μ σ A c b 0 + blockSum x μ σ A c b 1) + blockSum x μ σ A c b 2 := by
  have h : ∑ e : Fin 768, term x μ σ A c b e = ∑ e : Fin (3 * 256), termN x μ σ A c b e.val :=
    Finset.sum_congr rfl fun e _ => (termN_of_lt x μ σ A c b e.val e.isLt).symm
  rw [h, SumBlocks.sum_three_blocks]
  rfl

/-- Zero minus the running total after the third block is the score. -/
theorem zero_sub_running_two (c : Fin 256) (b : Fin 32) :
    0 - running x μ σ A c b 2 = score x μ σ A b c := by
  unfold score
  rw [sum_term_eq_blocks]
  show 0 - ((0 + blockSum x μ σ A c b 0 + blockSum x μ σ A c b 1) + blockSum x μ σ A c b 2) = _
  rw [sub_eq_add_neg, zero_add, zero_add, zero_add]

end Mahal

end
-- ==== Proof.Chain.lean ====
/-
  What the carried buffers hold after EVERY point, by induction on the point number.

  After point `n` (class block `n / 3`, feature block `n % 3`), for each row `p` of the class block — class
  `16·(n/3) + p` — and each sample `b`:
    • the difference scratch holds δ(class, b, d) for every feature `d`;
    • the running total holds the total through feature block `n % 3`;
    • if `n % 3 = 2`, the output block holds `0 −` (the total through all three blocks).
  At the first point of a run nothing earlier is used. At a later point the class block is the one of the point
  before (`(n−1)/3 = n/3`), the difference scratch is kept, and the running total takes up block `n % 3 = (n−1) % 3 + 1`.
-/
import proofs.«112128_j25185688224305_2_alg».proof.Proof.Cases
import proofs.«112128_j25185688224305_2_alg».proof.Proof.Blocks
import proofs.«112128_j25185688224305_2_alg».proof.Proof.Spec

set_option maxRecDepth 16384

noncomputable section

namespace Cert.KernelIdeal.Chain

open Cert.KernelIdeal Cert.KernelIdeal.Gen Cert.KernelIdeal.Blocks
open Idealize.ShloMosaic Idealize.ShloMosaic.TcCoe Idealize.ShloMosaic.ValueIdx Idealize.SL.Sem

variable (m : (ℓ : Loc nD τ sig) → Buf (Elt Ideal) ℓ)

/-- The four argument arrays as the region finds them: samples, class means, class scales, class matrices. -/
def aX (c : Dev nD) : S32x768.Idx → EReal := V m c main_arg0
def aMu (c : Dev nD) : S256x768.Idx → EReal := V m c main_arg1
def aSg (c : Dev nD) : S256x768.Idx → EReal := V m c main_arg2
def aA (c : Dev nD) : S256x768x768.Idx → EReal := V m c main_arg3

/-- The fresh difference of a point's blocks is δ of the point's classes. -/
theorem diff_fresh (c : Dev nD) (t : Fin cfg0.N) (p : Fin 16) (b : Fin 32) (d : Fin 768) :
    k0_pay1 (F := Ideal) (iblk m c 0 t) (iblk m c 2 t) (iblk m c 1 t) (iblk m c 2 t) (ix3 p b d)
      = Mahal.diff (aX m c) (aMu m c) (aSg m c) (cls t.val (lt48 t) p) b d :=
  (Pay.pay1_apply (iblk m c 0 t) (iblk m c 1 t) (iblk m c 2 t) p b d).trans
    (congrArg₂ (· - ·) (congrArg₂ Ideal.div (blkX_apply m c t b d) (blkSg_apply m c t p d))
      (congrArg₂ Ideal.div (blkMu_apply m c t p d) (blkSg_apply m c t p d)))

/-- One accumulation step at a point, over a difference scratch that holds δ of the point's classes, adds the
    point's feature block of the quadratic form. -/
theorem step_total (c : Dev nD) (t : Fin cfg0.N) (D : FVec Ideal S16x32x768 .bf16) (acc : FVec Ideal S16x32 .f32)
    (hD : ∀ (p : Fin 16) (b : Fin 32) (d : Fin 768), D (ix3 p b d) = Mahal.diff (aX m c) (aMu m c) (aSg m c) (cls t.val (lt48 t) p) b d)
    (p : Fin 16) (b : Fin 32) :
    k0_pay3 (F := Ideal) (iblk m c 3 t) D (Pay.featSlice (F := Ideal) (grid0.coords t) D) acc (ix2 p b)
      = acc (ix2 p b) + Mahal.blockSum (aX m c) (aMu m c) (aSg m c) (aA m c) (cls t.val (lt48 t) p) b (t.val % 3) := by
  have hj : t.val % 3 < 3 := Nat.mod_lt _ (by decide)
  have hB : ∀ (p : Fin 16) (d : Fin 768) (k : Fin 256),
      (iblk m c 3 t : Vec Ideal S16x768x256 .f32) (ix3 p d k)
        = aA m c (ix3 (cls t.val (lt48 t) p) d ⟨256 * (t.val % 3) + k.val, by omega⟩) :=
    fun p d k => blkA_apply m c t p d k
  have hD' : ∀ (p : Fin 16) (b : Fin 32) (k : Fin 256),
      Pay.featSlice (F := Ideal) (grid0.coords t) D (ix3 p b k)
        = D (ix3 p b ⟨256 * (t.val % 3) + k.val, by omega⟩) :=
    fun p b k => featSlice_at t D p b k
  refine (Pay.pay3_apply (iblk m c 3 t) D (Pay.featSlice (F := Ideal) (grid0.coords t) D) acc p b).trans ?_
  refine congrArg (acc (ix2 p b) + ·) ?_
  exact Mahal.step_eq_blockSum (aX m c) (aMu m c) (aSg m c) (aA m c) (cls t.val (lt48 t)) (t.val % 3) hj
    D (iblk m c 3 t) (Pay.featSlice (F := Ideal) (grid0.coords t) D) hD hB hD' p b

/-- What the carried buffers hold after point `n`. -/
structure Inv (c : Dev nD) (n : ℕ) (hn : n < cfg0.N) : Prop where
  diff : ∀ (p : Fin 16) (b : Fin 32) (d : Fin 768),
    (outsAt0 m c n hn).2.1 (ix3 p b d) = Mahal.diff (aX m c) (aMu m c) (aSg m c) (cls n (lt48 ⟨n, hn⟩) p) b d
  total : ∀ (p : Fin 16) (b : Fin 32),
    (outsAt0 m c n hn).2.2 (ix2 p b) = Mahal.running (aX m c) (aMu m c) (aSg m c) (aA m c) (cls n (lt48 ⟨n, hn⟩) p) b (n % 3)
  out : n % 3 = 2 → ∀ (p : Fin 16) (b : Fin 32),
    (outsAt0 m c n hn).1 (ix2 p b) = 0 - Mahal.running (aX m c) (aMu m c) (aSg m c) (aA m c) (cls n (lt48 ⟨n, hn⟩) p) b 2

/-- A later point of a run: the difference is kept and the total takes up the point's feature block. -/
theorem later (c : Dev nD) (n : ℕ) (hn : n < cfg0.N) (h0 : ¬n % 3 = 0)
    (IH : Inv m c (n - 1) (Nat.lt_of_le_of_lt (Nat.sub_le _ _) hn))
    (e1 : (outsAt0 m c n hn).2.1 = (outsAt0 m c (n - 1) (Nat.lt_of_le_of_lt (Nat.sub_le _ _) hn)).2.1)
    (e2 : (outsAt0 m c n hn).2.2
      = k0_pay3 (iblk m c 3 ⟨n, hn⟩) (outsAt0 m c (n - 1) (Nat.lt_of_le_of_lt (Nat.sub_le _ _) hn)).2.1
          (Pay.featSlice (F := Ideal) (grid0.coords ⟨n, hn⟩) (outsAt0 m c (n - 1) (Nat.lt_of_le_of_lt (Nat.sub_le _ _) hn)).2.1)
          (outsAt0 m c (n - 1) (Nat.lt_of_le_of_lt (Nat.sub_le _ _) hn)).2.2) :
    (∀ (p : Fin 16) (b : Fin 32) (d : Fin 768),
        (outsAt0 m c n hn).2.1 (ix3 p b d) = Mahal.diff (aX m c) (aMu m c) (aSg m c) (cls n (lt48 ⟨n, hn⟩) p) b d)
    ∧ ∀ (p : Fin 16) (b : Fin 32),
        (outsAt0 m c n hn).2.2 (ix2 p b) = Mahal.running (aX m c) (aMu m c) (aSg m c) (aA m c) (cls n (lt48 ⟨n, hn⟩) p) b (n % 3) := by
  have hN : n < 48 := lt48 ⟨n, hn⟩
  have hc : ∀ p : Fin 16, cls (n - 1) (lt48 ⟨n - 1, Nat.lt_of_le_of_lt (Nat.sub_le _ _) hn⟩) p = cls n hN p := fun p =>
    Fin.ext (by show 16 * ((n - 1) / 3) + p.val = 16 * (n / 3) + p.val; omega)
  have hD : ∀ (p : Fin 16) (b : Fin 32) (d : Fin 768),
      (outsAt0 m c (n - 1) (Nat.lt_of_le_of_lt (Nat.sub_le _ _) hn)).2.1 (ix3 p b d)
        = Mahal.diff (aX m c) (aMu m c) (aSg m c) (cls n hN p) b d :=
    fun p b d => (IH.diff p b d).trans (congrArg (fun q => Mahal.diff (aX m c) (aMu m c) (aSg m c) q b d) (hc p))
  refine ⟨fun p b d => (congrFun e1 (ix3 p b d)).trans (hD p b d), fun p b => ?_⟩
  obtain ⟨j, hj1, hj2⟩ : ∃ j, (n - 1) % 3 = j ∧ n % 3 = j + 1 := ⟨(n - 1) % 3, rfl, by omega⟩
  refine (congrFun e2 (ix2 p b)).trans ?_
  refine (step_total m c ⟨n, hn⟩ _ _ hD p b).trans ?_
  show (outsAt0 m c (n - 1) (Nat.lt_of_le_of_lt (Nat.sub_le _ _) hn)).2.2 (ix2 p b)
      + Mahal.blockSum (aX m c) (aMu m c) (aSg m c) (aA m c) (cls n hN p) b (n % 3)
    = Mahal.running (aX m c) (aMu m c) (aSg m c) (aA m c) (cls n hN p) b (n % 3)
  rw [IH.total p b, hc p, hj1, hj2]
  exact (Mahal.running_succ (aX m c) (aMu m c) (aSg m c) (aA m c) (cls n hN p) b j).symm

/-- The invariant holds after every point. -/
theorem inv (c : Dev nD) : ∀ (n : ℕ) (hn : n < cfg0.N), Inv m c n hn := by
  intro n
  induction n using Nat.strong_induction_on with
  | _ n ih =>
    intro hn
    have hN : n < 48 := lt48 ⟨n, hn⟩
    by_cases h0 : n % 3 = 0
    · obtain ⟨e1, e2⟩ := Cases.at_first m c ⟨n, hn⟩ h0
      refine ⟨fun p b d => (congrFun e1 (ix3 p b d)).trans (diff_fresh m c ⟨n, hn⟩ p b d), fun p b => ?_,
        fun h2 => by omega⟩
      refine (congrFun e2 (ix2 p b)).trans ?_
      refine (step_total m c ⟨n, hn⟩ _ _ (fun p b d => diff_fresh m c ⟨n, hn⟩ p b d) p b).trans ?_
      show k0_pay2 (F := Ideal) (ix2 p b) + Mahal.blockSum (aX m c) (aMu m c) (aSg m c) (aA m c) (cls n hN p) b (n % 3)
        = Mahal.running (aX m c) (aMu m c) (aSg m c) (aA m c) (cls n hN p) b (n % 3)
      rw [Pay.pay2_apply, h0]
      exact (Mahal.running_zero (aX m c) (aMu m c) (aSg m c) (aA m c) (cls n hN p) b).symm
    · have IH := ih (n - 1) (by omega) (Nat.lt_of_le_of_lt (Nat.sub_le _ _) hn)
      by_cases h1 : n % 3 = 2
      · obtain ⟨e1, e2, e3⟩ := Cases.at_last m c ⟨n, hn⟩ h0 h1
        obtain ⟨hd, ht⟩ := later m c n hn h0 IH e1 e2
        refine ⟨hd, ht, fun _ p b => ?_⟩
        refine (congrFun e3 (ix2 p b)).trans ?_
        refine (Pay.pay4_apply _ p b).trans ?_
        refine congrArg (fun z => 0 - z) ?_
        refine (congrFun e2 (ix2 p b)).symm.trans ?_
        rw [ht p b, h1]
      · obtain ⟨e1, e2⟩ := Cases.at_middle m c ⟨n, hn⟩ h0 h1
        obtain ⟨hd, ht⟩ := later m c n hn h0 IH e1 e2
        exact ⟨hd, ht, fun h2 => absurd h2 h1⟩

end Cert.KernelIdeal.Chain

end
-- ==== Proof.KernelRun.lean ====
/-
  The kernel's run, read: the result is the table of class scores.

  The region's output array has one row per class and one column per sample. Its block of 16 classes is written
  back once per run of three points, at the run's last point, where the output block holds
  `0 − (total through all three feature blocks)` = the score; the 16 blocks tile the 256 classes, so after the region
  the array holds `score(b, c)` at row `c`, column `b`. The one host operation after the region transposes it, so the
  program's result holds `score(b, c)` at row `b`, column `c`.
-/
import proofs.«112128_j25185688224305_2_alg».proof.Proof.Chain
import Idealize.ShloMosaic.Lib.Pipeline.Value
import Idealize.ShloMosaic.Lib.ValueLayout
import Idealize.ShloMosaic.Lib.StableHlo.Run

set_option maxRecDepth 16384

noncomputable section

namespace Cert.KernelIdeal.KRun

open Cert.KernelIdeal Cert.KernelIdeal.Gen Cert.KernelIdeal.Blocks Cert.KernelIdeal.Chain
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region's output array: row `c`, column `b` holds the score of sample `b` for class `c`. -/
def byClass (c : Dev nD) : S256x32.Idx → EReal := fun i =>
  Mahal.score (aX m c) (aMu m c) (aSg m c) (aA m c) ⟨(i 1).val, (i 1).isLt⟩ ⟨(i 0).val, (i 0).isLt⟩

/-- The program's result: row `b`, column `c` holds the score of sample `b` for class `c`. -/
def bySample (c : Dev nD) : S32x256.Idx → EReal := fun i =>
  Mahal.score (aX m c) (aMu m c) (aSg m c) (aA m c) ⟨(i 0).val, (i 0).isLt⟩ ⟨(i 1).val, (i 1).isLt⟩

/-- What the last point of a run writes back is its block of the score table. -/
theorem flushed_eq (c : Dev nD) (t : Fin cfg0.N) (hf : (cfg0.win 4).flush t = true) :
    (dats m 0 c).flushed 4 t = ((cfg0.win 4).blk t).view.read (Elt Ideal) (byClass m c) := by
  have h2 : t.val % 3 = 2 := (flush0_4 t).mp hf
  obtain ⟨-, -, -, -, -, -, -, -, -, e0, e1, -⟩ := idx_facts t
  show (cfg0.win 4).cut (grid0.coords t) ((dats m 0 c).after 4 t) = _
  rw [after0_4]
  funext y
  obtain ⟨p, b, rfl⟩ : ∃ (p : Fin 16) (b : Fin 32), y = ix2 p b := ⟨y 0, y 1, eq_ix2 y⟩
  show (outsAt0 m c t.val t.isLt).1 (ix2 p b) = byClass m c (((cfg0.win 4).blk t).view.emb (ix2 p b))
  refine ((inv m c t.val t.isLt).out h2 p b).trans ?_
  refine (Mahal.zero_sub_running_two (aX m c) (aMu m c) (aSg m c) (aA m c) (cls t.val (lt48 t) p) b).trans ?_
  unfold byClass
  refine congrArg₂ (Mahal.score (aX m c) (aMu m c) (aSg m c) (aA m c)) (Fin.ext ?_) (Fin.ext ?_)
  · show b.val = win0_4.index t (1 : Fin 2) * 32 + 1 * b.val
    rw [e1]; omega
  · show 16 * (t.val / 3) + p.val = win0_4.index t (0 : Fin 2) * 16 + 1 * p.val
    rw [e0]; omega

/-- An entry of the output array is in point `t`'s block iff each coordinate is in the block's range. -/
theorem mem_blk (t : Fin cfg0.N) (i : S256x32.Idx) :
    i ∈ ((cfg0.win 4).blk t).view.set
      ↔ ∀ a : Fin 2, win0_4.index t a * S16x32.size a ≤ (i a).val ∧ (i a).val < win0_4.index t a * S16x32.size a + S16x32.size a := by
  show i ∈ ((View.whole main_v0).slice (win0_4.rect t)).set ↔ _
  rw [View.set_slice_whole, Rect.mem_set_unit]
  exact Iff.rfl

/-- Class `c` is written back at the last point of run `c / 16`. -/
theorem cover (i : S256x32.Idx) :
    ∃ t : Fin cfg0.N, (cfg0.win 4).flush t = true ∧ i ∈ ((cfg0.win 4).blk t).view.set := by
  have h0 : (i 0).val < 256 := (i 0).isLt
  have h1 : (i 1).val < 32 := (i 1).isLt
  have hN : cfg0.N = 48 := N_0
  let t : Fin cfg0.N := ⟨3 * ((i 0).val / 16) + 2, by rw [hN]; omega⟩
  have ht : t.val = 3 * ((i 0).val / 16) + 2 := rfl
  obtain ⟨-, -, -, -, -, -, -, -, -, e0, e1, -⟩ := idx_facts t
  refine ⟨t, (flush0_4 t).mpr (by rw [ht]; omega), ?_⟩
  rw [mem_blk]
  intro a
  match a with
  | ⟨0, _⟩ =>
    show win0_4.index t (0 : Fin 2) * 16 ≤ (i 0).val ∧ (i 0).val < win0_4.index t (0 : Fin 2) * 16 + 16
    rw [e0, ht]; omega
  | ⟨1, _⟩ =>
    show win0_4.index t (1 : Fin 2) * 32 ≤ (i 1).val ∧ (i 1).val < win0_4.index t (1 : Fin 2) * 32 + 32
    rw [e1]; omega

/-- After the region the output array is the score table by class. -/
theorem final (c : Dev nD) : (dats m 0 c).arrAt 4 cfg0.N = byClass m c :=
  (dats m 0 c).arrAt_eq_of_cover 4 (byClass m c) (fun t hf => flushed_eq m c t hf) cover

/-- The transposition after the region turns the table by class into the table by sample. -/
theorem transpose_byClass (c : Dev nD) :
    transpose S32x256 [1, 0] (byClass m c) transposes_S256x32_S32x256_1_0 = bySample m c := by
  funext i
  obtain ⟨b, cl, rfl⟩ : ∃ (b : Fin 32) (cl : Fin 256), i = ix2 b cl := ⟨i 0, i 1, eq_ix2 i⟩
  exact transpose_ix2_apply (byClass m c) transposes_S256x32_S32x256_1_0 b cl

/-- The program's result buffer after the lines that follow the region. -/
theorem tail_eq (c : Dev nD) :
    Pipeline.afterTail₀ cfgs (dats m) 0 (V0 m) [hostOps1] c main_v1 = bySample m c := by
  unfold Pipeline.afterTail₀
  show StableHlo.after hostOps1 _ (Proc.devRef .tc main_v1) = _
  after_results
  refine (congrArg (fun z => transpose S32x256 [1, 0] z transposes_S256x32_S32x256_1_0)
    ((Pipeline.withArrays_arr spec0 launch0.win.arr_inj c _ _ 4).trans (final m c))).trans ?_
  exact transpose_byClass m c

/-- The run, read: the result at the score table, the arguments unchanged. -/
theorem run : θ_run defs (onTc (τ := τ) (main (F := Ideal))) ⟨m, fun _ => 0, ρ⟩ fun r => ∀ c : Dev nD,
      r.2.mem ((c.tc : Thread nD τ).loc main_v1) = bySample m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KRun

end
-- ==== Proof.RefScore.lean ====
/-
  The reference computes the class scores: its last stage, read at sample `b` and class `c`, is
  `−(0 + ∑_e (∑_d δ(c,b,d) · A(c,d,e)) · δ(c,b,e))` with `δ(c,b,d) = x(b,d)/σ(c,d) − μ(c,d)/σ(c,d)`.
  Each stage is read at an index through the generated stage lemmas; what is written here is which index of
  which argument every broadcast, the matrix product, the sum over features and the transposition read.
-/
import proofs.«112128_j25185688224305_2_alg».proof.Proof.Gen.ReferenceIdeal.Read
import proofs.«112128_j25185688224305_2_alg».proof.Proof.Spec

noncomputable section

namespace Cert.ReferenceIdeal.RefScore

open Cert.ReferenceIdeal Cert.ReferenceIdeal.Read Idealize.ShloMosaic Idealize.ShloMosaic.ValueIdx

variable (x0 : S32x768.Idx → EReal) (x1 x2 : S256x768.Idx → EReal) (x3 : S256x768x768.Idx → EReal)

/-! ### Which entry each layout stage reads -/

/-- The samples broadcast over the classes read `x(b,d)`. -/
theorem idx_x (c : Fin 256) (b : Fin 32) (d : Fin 768) : idx_main_v0 (idx_main_v2 (ix3 c b d)) = ix2 b d :=
  funext fun a => Fin.ext (by match a with | ⟨0, _⟩ => rfl | ⟨1, _⟩ => rfl)

/-- The scales broadcast over the samples read `σ(c,d)`. -/
theorem idx_sigma (c : Fin 256) (b : Fin 32) (d : Fin 768) : idx_main_v1 (idx_main_v3 (ix3 c b d)) = ix2 c d :=
  funext fun a => Fin.ext (by match a with | ⟨0, _⟩ => rfl | ⟨1, _⟩ => rfl)

/-- The normalized means broadcast over the samples read entry `(c,d)`. -/
theorem idx_mu (c : Fin 256) (b : Fin 32) (d : Fin 768) : idx_main_v6 (idx_main_v7 (ix3 c b d)) = ix2 c d :=
  funext fun a => Fin.ext (by match a with | ⟨0, _⟩ => rfl | ⟨1, _⟩ => rfl)

/-- The matrix product at `(c,b,e)` pairs `δ(c,b,d)` … -/
theorem idx_lhs (c : Fin 256) (b : Fin 32) (e d : Fin 768) : lidx_main_v9 (ix3 c b e) d = ix3 c b d :=
  funext fun a => Fin.ext (by match a with | ⟨0, _⟩ => rfl | ⟨1, _⟩ => rfl | ⟨2, _⟩ => rfl)

/-- … with `A(c,d,e)`. -/
theorem idx_rhs (c : Fin 256) (b : Fin 32) (e d : Fin 768) : ridx_main_v9 (ix3 c b e) d = ix3 c d e :=
  funext fun a => Fin.ext (by match a with | ⟨0, _⟩ => rfl | ⟨1, _⟩ => rfl | ⟨2, _⟩ => rfl)

/-- The sum over features at `(c,b)` runs over the entries `(c,b,e)`. -/
theorem idx_sum (c : Fin 256) (b : Fin 32) (e : Fin 768) : idx_main_v11 (ix2 c b) e = ix3 c b e :=
  funext fun a => Fin.ext (by match a with | ⟨0, _⟩ => rfl | ⟨1, _⟩ => rfl | ⟨2, _⟩ => rfl)

/-- The transposition reads `(c,b)` at `(b,c)`. -/
theorem idx_tr (b : Fin 32) (c : Fin 256) : idx_main_v12 (ix2 b c) = ix2 c b :=
  funext fun a => Fin.ext (by match a with | ⟨0, _⟩ => rfl | ⟨1, _⟩ => rfl)

/-! ### The stages -/

/-- The reference's difference stage is δ. -/
theorem diff_apply (c : Fin 256) (b : Fin 32) (d : Fin 768) :
    val_main_v8 (F := Ideal) x0 x1 x2 (ix3 c b d) = Mahal.diff x0 x1 x2 c b d := by
  rw [val_main_v8_apply, val_main_v4_apply, val_main_v2_apply, val_main_v0_apply, val_main_v3_apply, val_main_v1_apply,
    val_main_v7_apply, val_main_v6_apply, val_main_v5_apply, idx_x, idx_sigma, idx_mu]
  rfl

/-- The reference's product stage is the quadratic form's term τ. -/
theorem term_apply (c : Fin 256) (b : Fin 32) (e : Fin 768) :
    val_main_v10 (F := Ideal) x0 x1 x2 x3 (ix3 c b e) = Mahal.term x0 x1 x2 x3 c b e := by
  rw [val_main_v10_apply, val_main_v9_apply, diff_apply]
  unfold Mahal.term
  refine congrArg (· * _) (Finset.sum_congr rfl fun d _ => ?_)
  rw [idx_lhs, idx_rhs, diff_apply]

/-- The reference's result at sample `b` and class `c` is the score. -/
theorem result_apply (b : Fin 32) (c : Fin 256) :
    val_main_v13 (F := Ideal) x0 x1 x2 x3 (ix2 b c) = Mahal.score x0 x1 x2 x3 b c := by
  rw [val_main_v13_apply, val_main_v12_apply, idx_tr, val_main_v11_apply, val_main_cst_apply]
  unfold Mahal.score
  refine congrArg (fun s => -s) ?_
  refine congrArg₂ (· + ·) Ideal.ofBits_zero_f32 (Finset.sum_congr rfl fun e _ => ?_)
  rw [idx_sum, term_apply]

end Cert.ReferenceIdeal.RefScore

end
-- ==== Proof.lean ====
/-
  The certificate: a tiled kernel for class scores against its plain reference, equal on the extended reals.

  For 32 samples `x(b,·)`, and for each of 256 classes a mean `μ(c,·)`, a scale `σ(c,·)` and a 768 × 768 matrix
  `A(c,·,·)`, both programs compute
      score(b,c) = −∑_e (∑_d δ(c,b,d) · A(c,d,e)) · δ(c,b,e),     δ(c,b,d) = x(b,d)/σ(c,d) − μ(c,d)/σ(c,d).
  The reference does so in one pass. The kernel walks a grid of 16 class blocks × 3 blocks of 256 output features
  `e`: at the first feature block it forms δ for its 16 classes and zeroes a running total; at every feature block it
  adds that block's 256 terms; at the last it writes `0 − total`; a transposition after the call puts samples in rows.
  On the extended reals a change of float format is the identity and the matrix products and sums are exact, so the two
  results differ only in how the 768 terms are grouped — three blocks of 256 taken up one after the other from zero,
  against one sum from zero — and regrouping a finite sum needs only commutativity and associativity of addition:
  the precondition (finite inputs) is never used.

  The frames of the kernel and of its idealization are the generated ones; the reference's frame is its generated run
  with the result dropped; the idealization rewrote nothing, so `preserves` is `True`.
-/
import proofs.«112128_j25185688224305_2_alg».proof.Defs
import proofs.«112128_j25185688224305_2_alg».proof.Proof.Gen.Kernel
import proofs.«112128_j25185688224305_2_alg».proof.Proof.Gen.Kernel.Frame
import proofs.«112128_j25185688224305_2_alg».proof.Proof.Gen.KernelIdeal
import proofs.«112128_j25185688224305_2_alg».proof.Proof.Gen.KernelIdeal.Frame
import proofs.«112128_j25185688224305_2_alg».proof.Proof.Gen.ReferenceIdeal
import proofs.«112128_j25185688224305_2_alg».proof.Proof.Gen.ReferenceIdeal.Run
import proofs.«112128_j25185688224305_2_alg».proof.Proof.Gen.ReferenceIdeal.Read
import proofs.«112128_j25185688224305_2_alg».proof.Proof.Gen.Pre_finite_inputs
import proofs.«112128_j25185688224305_2_alg».proof.Proof.KernelRun
import proofs.«112128_j25185688224305_2_alg».proof.Proof.RefScore
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the score table of the same argument arrays: the kernel by its run read block by block,
    the reference by its stages read entry by entry. -/
theorem algebraic : Cert.algebraic_KernelIdeal_ReferenceIdeal := by
  intro m ρ m' ρ' _ hagree
  refine ⟨fun c => Cert.KernelIdeal.KRun.bySample m c, Cert.KernelIdeal.KRun.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v13_eq _ _ _ _)).trans ?_
  rw [(hagree c).1, (hagree c).2.1, (hagree c).2.2.1, (hagree c).2.2.2]
  funext i
  obtain ⟨b, cl, rfl⟩ : ∃ (b : Fin 32) (cl : Fin 256), i = ix2 b cl := ⟨i 0, i 1, eq_ix2 i⟩
  exact Cert.ReferenceIdeal.RefScore.result_apply _ _ _ _ b cl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
